-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2x256x1x8 : S_.BroadcastsInDim S2x256x1x8 (![] : Fin 0 → Fin S2x256x1x8.rank)
  reducesTo_S2x256x1x8_S_d0_1_2_3 : S2x256x1x8.ReducesTo [0, 1, 2, 3] S_
  bcast_S_S4096x1x1x1 : S_.BroadcastsInDim S4096x1x1x1 (![] : Fin 0 → Fin S4096x1x1x1.rank)
  reducesTo_S4096x1x1x1_S_d0_1_2_3 : S4096x1x1x1.ReducesTo [0, 1, 2, 3] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x512x2 32) (main_arg2 : FVec F S2x256x1x8 .f32) (main_arg3 : FVec F S4096x1x1x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2x256x1x8 .f32 := Host.absf main_arg2
  let main_cst_0 : FVec F S_ .f32 := constant S_ .f32 0x7F800000#32
  let main_v5 : FVec F S2x256x1x8 .f32 := broadcastInDim S2x256x1x8 ![] bcast_S_S2x256x1x8 main_cst_0
  let main_v6 : IVec S2x256x1x8 1 := cmpf .olt main_v4 main_v5
  let main_c_1 : IVec S_ 1 := constantI S_ 1 1#1
  let main_v7 : IVec S_ 1 := (fun x v => Host.reduce IntOp.andi x v reducesTo_S2x256x1x8_S_d0_1_2_3 h_S_) main_v6 main_c_1
  let main_v8 : IVec S_ 1 := andi main_v3 main_v7
  let main_v9 : FVec F S4096x1x1x1 .f32 := Host.absf main_arg3
  let main_cst_2 : FVec F S_ .f32 := constant S_ .f32 0x7F800000#32
  let main_v10 : FVec F S4096x1x1x1 .f32 := broadcastInDim S4096x1x1x1 ![] bcast_S_S4096x1x1x1 main_cst_2
  let main_v11 : IVec S4096x1x1x1 1 := cmpf .olt main_v9 main_v10
  let main_c_3 : IVec S_ 1 := constantI S_ 1 1#1
  let main_v12 : IVec S_ 1 := (fun x v => Host.reduce IntOp.andi x v reducesTo_S4096x1x1x1_S_d0_1_2_3 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S512x1x8 : Shape := ⟨3, ![512, 1, 8]⟩
abbrev S2 : Shape := ⟨1, ![2]⟩
abbrev S_ : Shape := ⟨0, ![]⟩
abbrev S1x1x2 : Shape := ⟨3, ![1, 1, 2]⟩
abbrev S4096x512x2x1 : Shape := ⟨4, ![4096, 512, 2, 1]⟩
abbrev S4096x512x2x1x8 : Shape := ⟨5, ![4096, 512, 2, 1, 8]⟩
abbrev S4096x512x1x8 : Shape := ⟨4, ![4096, 512, 1, 8]⟩
abbrev S4096x1x512x8 : Shape := ⟨4, ![4096, 1, 512, 8]⟩
abbrev S4096x4096 : Shape := ⟨2, ![4096, 4096]⟩
abbrev S8192x4096 : Shape := ⟨2, ![8192, 4096]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 33
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x1x8, .f32⟩
  | .hbm, ⟨3, _⟩ => ⟨S4096x1x1x1, .f32⟩
  | .hbm, ⟨4, _⟩ => ⟨S4096, .f32⟩
  | .hbm, ⟨5, _⟩ => ⟨S512x1x8, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S1x1x2, .i32⟩
  | .hbm, ⟨11, _⟩ => ⟨S4096x512x2, .i32⟩
  | .hbm, ⟨12, _⟩ => ⟨S4096x512x2, .i32⟩
  | .hbm, ⟨13, _⟩ => ⟨S_, .i32⟩
  | .hbm, ⟨14, _⟩ => ⟨S4096x512x2, .i32⟩
  | .hbm, ⟨15, _⟩ => ⟨S4096x512x2, .i1⟩
  | .hbm, ⟨16, _⟩ => ⟨S_, .i32⟩
  | .hbm, ⟨17, _⟩ => ⟨S4096x512x2, .i32⟩
  | .hbm, ⟨18, _⟩ => ⟨S4096x512x2, .i32⟩
  | .hbm, ⟨19, _⟩ => ⟨S4096x512x2, .i32⟩
  | .hbm, ⟨20, _⟩ => ⟨S4096x512x2x1, .i32⟩
  | .hbm, ⟨21, _⟩ => ⟨S4096x512x2x1x8, .f32⟩
  | .hbm, ⟨22, _⟩ => ⟨S_, .f32⟩
  | .hbm, ⟨23, _⟩ => ⟨S4096x512x1x8, .f32⟩
  | .hbm, ⟨24, _⟩ => ⟨S4096x512x1x8, .f32⟩
  | .hbm, ⟨25, _⟩ => ⟨S4096x512x1x8, .f32⟩
  | .hbm, ⟨26, _⟩ => ⟨S4096x1x512x8, .f32⟩
  | .hbm, ⟨27, _⟩ => ⟨S4096x4096, .f32⟩
  | .hbm, ⟨28, _⟩ => ⟨S4096x4096, .bf16⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x256x1x8_S512x1x8 : S2x256x1x8.ShapeCasts S512x1x8
  bcast_S_S2 : S_.BroadcastsInDim S2 (![] : Fin 0 → Fin S2.rank)
  bcast_S2_S1x1x2_2 : S2.BroadcastsInDim S1x1x2 (![2] : Fin 1 → Fin S1x1x2.rank)
  bcast_S1x1x2_S4096x512x2_0_1_2 : S1x1x2.BroadcastsInDim S4096x512x2 (![0, 1, 2] : Fin 3 → Fin S4096x512x2.rank)
  bcast_S_S4096x512x2 : S_.BroadcastsInDim S4096x512x2 (![] : Fin 0 → Fin S4096x512x2.rank)
  bcast_S4096x512x2_S4096x512x2x1_0_1_2 : S4096x512x2.BroadcastsInDim S4096x512x2x1 (![0, 1, 2] : Fin 3 → Fin S4096x512x2x1.rank)
  reducesTo_S4096x512x2x1x8_S4096x512x1x8_d2 : S4096x512x2x1x8.ReducesTo [2] S4096x512x1x8
  h_S_ : 0 < S_.numel
  bcast_S4096x1x1x1_S4096x512x1x8_0_1_2_3 : S4096x1x1x1.BroadcastsInDim S4096x512x1x8 (![0, 1, 2, 3] : Fin 4 → Fin S4096x512x1x8.rank)
  transposes_S4096x512x1x8_S4096x1x512x8_0_2_1_3 : S4096x512x1x8.Transposes [0, 2, 1, 3] S4096x1x512x8
  shapeCasts_S4096x1x512x8_S4096x4096 : S4096x1x512x8.ShapeCasts S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  gather_S512x1x8_S4096x512x2x1_S4096x512x2x1x8_34_0_n_n_0_3_118_wf : GatherDims.WF S512x1x8 S4096x512x2x1 S4096x512x2x1x8 [3, 4] [0] [] [0] [] 3 ![1, 1, 8]
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def gather_S512x1x8_S4096x512x2x1_S4096x512x2x1x8_34_0_n_n_0_3_118 : GatherDims S512x1x8 S4096x512x2x1 S4096x512x2x1x8 where
  offsetDims := [3, 4]
  collapsedSliceDims := [0]
  operandBatchingDims := []
  startIndicesBatchingDims := []
  startIndexMap := [0]
  indexVectorDim := 3
  sliceSizes := ![1, 1, 8]
  wf := gather_S512x1x8_S4096x512x2x1_S4096x512x2x1x8_34_0_n_n_0_3_118_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v20) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S512x1x8 : Shape := ⟨3, ![512, 1, 8]⟩
abbrev S2 : Shape := ⟨1, ![2]⟩
abbrev S_ : Shape := ⟨0, ![]⟩
abbrev S1x1x2 : Shape := ⟨3, ![1, 1, 2]⟩
abbrev S4096x512x2x1 : Shape := ⟨4, ![4096, 512, 2, 1]⟩
abbrev S4096x512x2x1x8 : Shape := ⟨5, ![4096, 512, 2, 1, 8]⟩
abbrev S4096x512x1x8 : Shape := ⟨4, ![4096, 512, 1, 8]⟩
abbrev S4096x1x512x8 : Shape := ⟨4, ![4096, 1, 512, 8]⟩
abbrev S4096x4096 : Shape := ⟨2, ![4096, 4096]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x1x8, .f32⟩
  | .hbm, ⟨3, _⟩ => ⟨S4096x1x1x1, .f32⟩
  | .hbm, ⟨4, _⟩ => ⟨S4096, .f32⟩
  | .hbm, ⟨5, _⟩ => ⟨S512x1x8, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S1x1x2, .i32⟩
  | .hbm, ⟨11, _⟩ => ⟨S4096x512x2, .i32⟩
  | .hbm, ⟨12, _⟩ => ⟨S4096x512x2, .i32⟩
  | .hbm, ⟨13, _⟩ => ⟨S_, .i32⟩
  | .hbm, ⟨14, _⟩ => ⟨S4096x512x2, .i32⟩
  | .hbm, ⟨15, _⟩ => ⟨S4096x512x2, .i1⟩
  | .hbm, ⟨16, _⟩ => ⟨S_, .i32⟩
  | .hbm, ⟨17, _⟩ => ⟨S4096x512x2, .i32⟩
  | .hbm, ⟨18, _⟩ => ⟨S4096x512x2, .i32⟩
  | .hbm, ⟨19, _⟩ => ⟨S4096x512x2, .i32⟩
  | .hbm, ⟨20, _⟩ => ⟨S4096x512x2x1, .i32⟩
  | .hbm, ⟨21, _⟩ => ⟨S4096x512x2x1x8, .f32⟩
  | .hbm, ⟨22, _⟩ => ⟨S_, .f32⟩
  | .hbm, ⟨23, _⟩ => ⟨S4096x512x1x8, .f32⟩
  | .hbm, ⟨24, _⟩ => ⟨S4096x512x1x8, .f32⟩
  | .hbm, ⟨25, _⟩ => ⟨S4096x512x1x8, .f32⟩
  | .hbm, ⟨26, _⟩ => ⟨S4096x1x512x8, .f32⟩
  | .hbm, ⟨27, _⟩ => ⟨S4096x4096, .f32⟩
  | .hbm, ⟨28, _⟩ => ⟨S4x2048x4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  shapeCasts_S2x256x1x8_S512x1x8 : S2x256x1x8.ShapeCasts S512x1x8
  bcast_S_S2 : S_.BroadcastsInDim S2 (![] : Fin 0 → Fin S2.rank)
  bcast_S2_S1x1x2_2 : S2.BroadcastsInDim S1x1x2 (![2] : Fin 1 → Fin S1x1x2.rank)
  bcast_S1x1x2_S4096x512x2_0_1_2 : S1x1x2.BroadcastsInDim S4096x512x2 (![0, 1, 2] : Fin 3 → Fin S4096x512x2.rank)
  bcast_S_S4096x512x2 : S_.BroadcastsInDim S4096x512x2 (![] : Fin 0 → Fin S4096x512x2.rank)
  bcast_S4096x512x2_S4096x512x2x1_0_1_2 : S4096x512x2.BroadcastsInDim S4096x512x2x1 (![0, 1, 2] : Fin 3 → Fin S4096x512x2x1.rank)
  reducesTo_S4096x512x2x1x8_S4096x512x1x8_d2 : S4096x512x2x1x8.ReducesTo [2] S4096x512x1x8
  h_S_ : 0 < S_.numel
  bcast_S4096x1x1x1_S4096x512x1x8_0_1_2_3 : S4096x1x1x1.BroadcastsInDim S4096x512x1x8 (![0, 1, 2, 3] : Fin 4 → Fin S4096x512x1x8.rank)
  transposes_S4096x512x1x8_S4096x1x512x8_0_2_1_3 : S4096x512x1x8.Transposes [0, 2, 1, 3] S4096x1x512x8
  shapeCasts_S4096x1x512x8_S4096x4096 : S4096x1x512x8.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S512x1x8_S4096x512x2x1_S4096x512x2x1x8_34_0_n_n_0_3_118_wf : GatherDims.WF S512x1x8 S4096x512x2x1 S4096x512x2x1x8 [3, 4] [0] [] [0] [] 3 ![1, 1, 8]
  dot_S4x2048x4096_S4096x4096_S4x2048x4096_2_1_01_0_n_n_wf : DotDims.WF S4x2048x4096 S4096x4096 S4x2048x4096 [2] [1] [0, 1] [0] [] []

variable [Facts₀]

def gather_S512x1x8_S4096x512x2x1_S4096x512x2x1x8_34_0_n_n_0_3_118 : GatherDims S512x1x8 S4096x512x2x1 S4096x512x2x1x8 where
  offsetDims := [3, 4]
  collapsedSliceDims := [0]
  operandBatchingDims := []
  startIndicesBatchingDims := []
  startIndexMap := [0]
  indexVectorDim := 3
  sliceSizes := ![1, 1, 8]
  wf := gather_S512x1x8_S4096x512x2x1_S4096x512x2x1x8_34_0_n_n_0_3_118_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.HostSide.lean ====
/-
  The host operations around the region, read back.

  Before the region the program flattens the input to [8192, 4096], views the bias as a [1, 4096] row, and
  dequantizes the weight matrix by the same chain of operations as the reference (the chain is compared
  term against term and never opened), then narrows the weight's float format, which is the identity on the
  extended reals.  After the region it re-shapes the [8192, 4096] result to [4, 2048, 4096].
-/
import proofs.«108061_j17042430231143_1_alg».proof.Proof.Gen.KernelIdeal.Frame
import proofs.«108061_j17042430231143_1_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The region finds the input flattened to rows. -/
theorem staged_input : (V m c main_v20 : S8192x4096.Idx → EReal)
    = shapeCast S8192x4096 (m ((c : Thread nD τ).loc main_arg0)) shapeCasts_S4x2048x4096_S8192x4096 := by
  show StableHlo.after hostOps0 (fun b => m (c, b)) (Proc.devRef .tc main_v20) = _
  after_results
  rfl

/-- The region finds the bias as a one-row matrix. -/
theorem staged_bias : (V m c main_v21 : S1x4096.Idx → EReal)
    = shapeCast S1x4096 (m ((c : Thread nD τ).loc main_arg4)) shapeCasts_S4096_S1x4096 := by
  show StableHlo.after hostOps0 (fun b => m (c, b)) (Proc.devRef .tc main_v21) = _
  after_results
  rfl

set_option maxHeartbeats 4000000 in
/-- The region finds the weight the reference's own dequantization chain computes from the codes, the
    codebooks and the scales: the two programs print the same operations, and narrowing the float format
    changes no extended real. -/
theorem staged_weight : (V m c main_v19 : S4096x4096.Idx → EReal)
    = Cert.ReferenceIdeal.Read.val_main_v18 (F := Ideal) (m ((c : Thread nD τ).loc main_arg1))
        (m ((c : Thread nD τ).loc main_arg2)) (m ((c : Thread nD τ).loc main_arg3)) := by
  show StableHlo.after hostOps0 (fun b => m (c, b)) (Proc.devRef .tc main_v19) = _
  after_results_simp
  rfl

/-- The program's result is the region's output array re-shaped to [4, 2048, 4096]. -/
theorem tail_result :
    Pipeline.afterTail₀ cfgs (dats m) 0 (V0 m) [hostOps1] c main_v23
      = shapeCast S4x2048x4096 ((dats m 0 c).arrAt 3 cfg0.N) shapeCasts_S8192x4096_S4x2048x4096 := by
  unfold Pipeline.afterTail₀
  show StableHlo.after hostOps1 _ (Proc.devRef .tc main_v23) = _
  after_results
  exact congrArg (fun a => shapeCast S4x2048x4096 a shapeCasts_S8192x4096_S4x2048x4096)
    (Pipeline.withArrays_arr spec0 launch0.win.arr_inj c _ _ 3)

end Cert.KernelIdeal.HostSide

end
-- ==== Proof.Payload.lean ====
/-
  What the kernel body stores at one grid point, read at an index of its [512, 512] output block.

  The body loads a [512, 4096] block `x0` of the flattened input, a [512, 4096] block `x1` of the weight
  (already in the narrow float format; the input block is narrowed too, which changes nothing on the
  extended reals), multiplies them contracting the shared 4096-axis into a zero accumulator, and adds the
  [1, 512] bias block `x2` broadcast down the rows.  At entry (p, q) that is

      (∑ k < 4096, x0 (p, k) · x1 (q, k)) + x2 (0, q).
-/
import proofs.«108061_j17042430231143_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The body's matrix product: rows of the left block against rows of the right block. -/
abbrev mm := dot_S512x4096_S512x4096_S512x512_1_1_0_0_n_n

/-- The left operand is read at the output's row … -/
theorem lhs_row (j : S512x512.Idx) (κ : mm.contr.Idx) : (mm.lhsIdx j κ 0).val = (j 0).val := by
  unfold DotDims.lhsIdx
  rw [dif_neg (show ¬(0 : Fin S512x4096.rank) ∈ mm.lhsBatch by decide),
    dif_pos (show (0 : Fin S512x4096.rank) ∈ mm.lhsNonContracting by decide)]
  rfl
/-- … and at the contraction coordinate. -/
theorem lhs_contr (j : S512x512.Idx) (κ : mm.contr.Idx) : (mm.lhsIdx j κ 1).val = (κ ⟨0, by decide⟩).val :=
  mm.lhsIdx_val_of_single rfl j κ
/-- The right operand is read at the output's COLUMN (its own row: the product is against the transpose) … -/
theorem rhs_row (j : S512x512.Idx) (κ : mm.contr.Idx) : (mm.rhsIdx j κ 0).val = (j 1).val := by
  unfold DotDims.rhsIdx
  rw [dif_neg (show ¬(0 : Fin S512x4096.rank) ∈ mm.rhsBatch by decide),
    dif_pos (show (0 : Fin S512x4096.rank) ∈ mm.rhsNonContracting by decide)]
  rfl
/-- … and at the contraction coordinate. -/
theorem rhs_contr (j : S512x512.Idx) (κ : mm.contr.Idx) : (mm.rhsIdx j κ 1).val = (κ ⟨0, by decide⟩).val :=
  mm.rhsIdx_val_of_single rfl j κ

/-- The stored value at entry (p, q) of the output block. -/
theorem pay_apply (x0 : FVec Ideal S512x4096 .f32) (x1 : FVec Ideal S512x4096 .bf16) (x2 : FVec Ideal S1x512 .f32)
    (p q : Fin 512) :
    k0_pay1 (F := Ideal) x0 x1 x2 (ix2 p q)
      = (∑ k : Fin 4096, x0 (ix2 p k) * x1 (ix2 q k)) + x2 (ix2 (0 : Fin 1) q) := by
  unfold k0_pay1
  simp only [shapeCast_self]
  rw [addf_apply]
  refine congrArg₂ (· + ·) ?_ ?_
  · refine (Ideal.matmul_constant_zero_apply mm none _ _ (ix2 p q)).trans ?_
    rw [← Equiv.sum_comp (contrEquiv1 mm 4096 rfl rfl).symm]
    refine Finset.sum_congr rfl fun k _ => ?_
    have hk := contrEquiv1_symm_val mm 4096 rfl rfl k
    have el : mm.lhsIdx (ix2 p q) ((contrEquiv1 mm 4096 rfl rfl).symm k) = ix2 p k := funext fun a => Fin.ext (by
      match a with
      | ⟨0, _⟩ => exact lhs_row _ _
      | ⟨1, _⟩ => exact (lhs_contr _ _).trans hk)
    have er : mm.rhsIdx (ix2 p q) ((contrEquiv1 mm 4096 rfl rfl).symm k) = ix2 q k := funext fun a => Fin.ext (by
      match a with
      | ⟨0, _⟩ => exact rhs_row _ _
      | ⟨1, _⟩ => exact (rhs_contr _ _).trans hk)
    rw [el, er]
    rfl
  · exact broadcastTo_apply x2 broadcasts_S1x512_S512x512 (ix2 p q) (ix2 (0 : Fin 1) q) (fun a => match a with
      | ⟨0, _⟩ => by show 0 = if (1 : Nat) = 1 then 0 else q.val; rw [if_pos rfl]
      | ⟨1, _⟩ => by show q.val = if (512 : Nat) = 1 then 0 else q.val; rw [if_neg (by decide)])

end Cert.KernelIdeal.Body

end
-- ==== Proof.Spec.lean ====
/-
  The function both programs compute, stated once over literal shapes.

  A dense layer with a dequantized weight: for an input `x` of shape [4, 2048, 4096], a weight
  matrix `w` of shape [4096 (out), 4096 (in)] and a bias `b` of length 4096,

      linear x w b (β, s, o) = (∑ k < 4096, x (β, s, k) · w (o, k)) + b o

  on the extended reals.  The kernel computes it on the input flattened to [8192, 4096] rows
  (`linearRows`), row r = β · 2048 + s, and re-shapes the [8192, 4096] result back.
-/
import Idealize.ShloMosaic.PureOps.Ideal
import Idealize.ShloMosaic.Lib.ValueIdx

noncomputable section

namespace Cert.Spec

open Idealize.ShloMosaic Idealize.ShloMosaic.ValueIdx

/-- `x @ wᵀ + b` over the batch and sequence axes: entry (β, s, o) is the inner product of the input's
    row (β, s) with the weight's row `o`, plus the bias at `o`. -/
def linear (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun i => (∑ k : Fin 4096, x (ix3 (i 0) (i 1) k) * w (ix2 (i 2) k)) + b (ix1 (i 2))

/-- The same on flattened rows: entry (r, o) of an [8192, 4096] result from an [8192, 4096] input `a`,
    the weight, and the bias as a [1, 4096] row. -/
def linearRows (a : (⟨2, ![8192, 4096]⟩ : Shape).Idx → EReal) (w : (⟨2, ![4096, 4096]⟩ : Shape).Idx → EReal)
    (b : (⟨2, ![1, 4096]⟩ : Shape).Idx → EReal) : (⟨2, ![8192, 4096]⟩ : Shape).Idx → EReal :=
  fun j => (∑ k : Fin 4096, a (ix2 (j 0) k) * w (ix2 (j 1) k)) + b (ix2 (0 : Fin 1) (j 1))

end Cert.Spec

end
-- ==== Proof.Blocks.lean ====
/-
  From what each grid point writes back to the whole [8192, 4096] array after the region.

  The grid is 16 × 8.  At point (i, j) the body reads rows block i of the flattened input (all 4096
  columns), rows block j of the weight (all 4096 columns) and columns block j of the bias row, and writes
  the [512, 512] block (i, j) of the output.  So what the point writes back is block (i, j) of ONE function
  of the three arrays as the region finds them, the rows-form dense layer; the 128 blocks tile the array,
  hence the array after the region is that function.
-/
import proofs.«108061_j17042430231143_1_alg».proof.Proof.Gen.KernelIdeal.Frame
import proofs.«108061_j17042430231143_1_alg».proof.Proof.Payload
import proofs.«108061_j17042430231143_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The rows-form dense layer of the three arrays the region stages, as it finds them. -/
def rowsOut (c : Dev nD) : S8192x4096.Idx → EReal :=
  Cert.Spec.linearRows (V m c main_v20) (V m c main_v19) (V m c main_v21)

theorem offset_zero : (![0, 0] : Fin 2 → Nat) = fun _ => 0 := funext fun a => by fin_cases a <;> rfl

/-- The printed index maps, decided over the 128 points: the input moves with the output's row block and the
    weight and the bias with its column block; the other coordinates are zero; the output's block indices
    stay inside 16 × 8. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block of the 16 × 8 tiling is some point's. -/
theorem index_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-- Entry (p, k) of the input's block at point `t` is the flattened input at row `r`, the output block's
    row offset plus p. -/
theorem read_input (c : Dev nD) (t : Fin cfg0.N) (p : Fin 512) (k : Fin 4096) (r : Fin 8192)
    (hr : r.val = win0_3.index t (0 : Fin 2) * 512 + p.val) :
    iblk m c 0 t (ix2 p k) = V m c main_v20 (ix2 r k) := by
  obtain ⟨e0, e1, -, -, -, -, -, -⟩ := index_facts t
  show V m c main_v20 (((cfg0.win 0).blk t).view.emb (ix2 p k)) = V m c main_v20 (ix2 r k)
  refine congrArg (V m c main_v20) (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Entry (q, k) of the weight's block at point `t` is the weight at row `n`, the output block's column
    offset plus q. -/
theorem read_weight (c : Dev nD) (t : Fin cfg0.N) (q : Fin 512) (k : Fin 4096) (n : Fin 4096)
    (hn : n.val = win0_3.index t (1 : Fin 2) * 512 + q.val) :
    iblk m c 1 t (ix2 q k) = V m c main_v19 (ix2 n k) := by
  obtain ⟨-, -, e2, e3, -, -, -, -⟩ := index_facts t
  show V m c main_v19 (((cfg0.win 1).blk t).view.emb (ix2 q k)) = V m c main_v19 (ix2 n k)
  refine congrArg (V m c main_v19) (funext fun a => Fin.ext ?_)
  match a with
  | ⟨0, _⟩ => show win0_1.index t (0 : Fin 2) * 512 + 1 * q.val = n.val; omega
  | ⟨1, _⟩ => show win0_1.index t (1 : Fin 2) * 4096 + 1 * k.val = k.val; omega

/-- Entry (0, q) of the bias's block at point `t` is the bias row at column `n`. -/
theorem read_bias (c : Dev nD) (t : Fin cfg0.N) (q : Fin 512) (n : Fin 4096)
    (hn : n.val = win0_3.index t (1 : Fin 2) * 512 + q.val) :
    iblk m c 2 t (ix2 (0 : Fin 1) q) = V m c main_v21 (ix2 (0 : Fin 1) n) := by
  obtain ⟨-, -, -, -, e4, e5, -, -⟩ := index_facts t
  show V m c main_v21 (((cfg0.win 2).blk t).view.emb (ix2 (0 : Fin 1) q)) = V m c main_v21 (ix2 (0 : Fin 1) n)
  refine congrArg (V m c main_v21) (funext fun a => Fin.ext ?_)
  match a with
  | ⟨0, _⟩ => show win0_2.index t (0 : Fin 2) * 1 + 1 * 0 = 0; omega
  | ⟨1, _⟩ => show win0_2.index t (1 : Fin 2) * 512 + 1 * q.val = n.val; omega

/-- WHAT POINT `t` WRITES BACK is block `t` of the rows-form layer. -/
theorem flushed_eq (c : Dev nD) (t : Fin cfg0.N) :
    (dats m 0 c).flushed 3 t = ((cfg0.win 3).blk t).view.read (Elt Ideal) (rowsOut m c) := by
  show (cfg0.win 3).cut (grid0.coords t) ((dats m 0 c).after 3 t) = _
  rw [after0_3]
  unfold out0_3
  rw [View.canon_unit_zero offset_zero]
  simp only [View.ld_unit_zero (S := S512x4096) offset_zero, View.ld_unit_zero (S := S1x512) offset_zero]
  funext j
  obtain ⟨p, q, rfl⟩ : ∃ (p q : Fin 512), j = ix2 p q := ⟨j 0, j 1, eq_ix2 j⟩
  have hr : (((cfg0.win 3).blk t).view.emb (ix2 p q) 0).val = win0_3.index t (0 : Fin 2) * 512 + p.val := by
    show win0_3.index t (0 : Fin 2) * 512 + 1 * p.val = _; omega
  have hn : (((cfg0.win 3).blk t).view.emb (ix2 p q) 1).val = win0_3.index t (1 : Fin 2) * 512 + q.val := by
    show win0_3.index t (1 : Fin 2) * 512 + 1 * q.val = _; omega
  show k0_pay1 (F := Ideal) (iblk m c 0 t) (iblk m c 1 t) (iblk m c 2 t) (ix2 p q)
    = rowsOut m c (((cfg0.win 3).blk t).view.emb (ix2 p q))
  refine (Cert.KernelIdeal.Body.pay_apply _ _ _ p q).trans ?_
  unfold rowsOut Cert.Spec.linearRows
  exact congrArg₂ (· + ·)
    (Finset.sum_congr rfl fun k _ => congrArg₂ (· * ·) (read_input m c t p k _ hr) (read_weight m c t q k _ hn))
    (read_bias m c t q _ hn)

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v22).slice (win0_3.rect t)).set ↔ _
  rw [View.set_slice_whole, Rect.mem_set_unit]
  exact Iff.rfl

/-- The blocks tile the array: entry (r, n) is in the block of the point with block indices (r / 512, n / 512). -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE ARRAY after the region is the rows-form layer of the staged arrays. -/
theorem final (c : Dev nD) : (dats m 0 c).arrAt 3 cfg0.N = rowsOut m c :=
  (dats m 0 c).arrAt_eq_of_cover 3 (rowsOut m c) (fun t _ => flushed_eq m c t) (cover)

end Cert.KernelIdeal.Blocks

end
-- ==== Proof.Reshape.lean ====
/-
  Flattening the batch and sequence axes commutes with the dense layer.

  Row r = β · 2048 + s of the [8192, 4096] flattening of a [4, 2048, 4096] array is its (β, s) slice (both
  are row-major), so the rows-form layer applied to the flattened input, with the bias as a [1, 4096] row,
  and re-shaped back to [4, 2048, 4096], is the layer itself, entry by entry.
-/
import proofs.«108061_j17042430231143_1_alg».proof.Proof.Spec
import Idealize.ShloMosaic.Lib.Pipeline.Value

noncomputable section

namespace Cert.Spec

open Idealize.ShloMosaic Idealize.ShloMosaic.ValueIdx

abbrev SIn : Shape := ⟨3, ![4, 2048, 4096]⟩
abbrev SRows : Shape := ⟨2, ![8192, 4096]⟩
abbrev SW : Shape := ⟨2, ![4096, 4096]⟩
abbrev SBias : Shape := ⟨1, ![4096]⟩
abbrev SBiasRow : Shape := ⟨2, ![1, 4096]⟩

/-- `reshape (linearRows (reshape x) w (reshape b)) = linear x w b`. -/
theorem linearRows_reshape (x : SIn.Idx → EReal) (w : SW.Idx → EReal) (b : SBias.Idx → EReal)
    (hx : SIn.ShapeCasts SRows) (hb : SBias.ShapeCasts SBiasRow) (ho : SRows.ShapeCasts SIn) :
    shapeCast SIn (linearRows (shapeCast SRows x hx) w (shapeCast SBiasRow b hb)) ho = linear x w b := by
  funext i
  have h0 : (i 0).val < 4 := (i 0).isLt
  have h1 : (i 1).val < 2048 := (i 1).isLt
  have h2 : (i 2).val < 4096 := (i 2).isLt
  -- the flattened row of (β, s)
  let r : Fin 8192 := ⟨(i 0).val * 2048 + (i 1).val, by omega⟩
  let o : Fin 4096 := ⟨(i 2).val, h2⟩
  refine (shapeCast_apply _ ho i (ix2 r o) (by
    rewrite [Shape.rowMajor_val_two, Shape.rowMajor_val_three]
    show ((i 0).val * 2048 + (i 1).val) * 4096 + (i 2).val = ((i 0).val * 2048 + (i 1).val) * 4096 + (i 2).val
    rfl)).trans ?_
  unfold linearRows linear
  refine congrArg₂ (· + ·) (Finset.sum_congr rfl fun k _ => congrArg₂ (· * ·) ?_ ?_) ?_
  · exact shapeCast_apply x hx (ix2 r k) (ix3 (i 0) (i 1) k) (by
      rewrite [Shape.rowMajor_val_three, Shape.rowMajor_val_two]
      show ((i 0).val * 2048 + (i 1).val) * 4096 + k.val = ((i 0).val * 2048 + (i 1).val) * 4096 + k.val
      rfl)
  · rfl
  · exact shapeCast_apply b hb (ix2 (0 : Fin 1) o) (ix1 (i 2)) (by
      rewrite [Shape.rowMajor_val_one, Shape.rowMajor_val_two]
      show (i 2).val = 0 * 4096 + (i 2).val
      omega)

end Cert.Spec

end
-- ==== Proof.KernelValue.lean ====
/-
  The idealized kernel program's run, with its result named: the dense layer of the input, of the weight
  the host operations dequantize, and of the bias.

  The region leaves the rows-form layer of the flattened input, the weight and the bias row in its output
  array (the blocks tile it); the host re-shape after the region undoes the flattening.
-/
import proofs.«108061_j17042430231143_1_alg».proof.Proof.HostSide
import proofs.«108061_j17042430231143_1_alg».proof.Proof.Blocks
import proofs.«108061_j17042430231143_1_alg».proof.Proof.Reshape

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The dequantized weight matrix, as a function of the codes, the codebooks and the scales at launch. -/
abbrev weight (c : Dev nD) : Cert.ReferenceIdeal.S4096x4096.Idx → EReal :=
  Cert.ReferenceIdeal.Read.val_main_v18 (F := Ideal) (m ((c : Thread nD τ).loc main_arg1))
    (m ((c : Thread nD τ).loc main_arg2)) (m ((c : Thread nD τ).loc main_arg3))

/-- What the program's result buffer holds after the last host operation. -/
theorem result (c : Dev nD) :
    Pipeline.afterTail₀ cfgs (dats m) 0 (V0 m) [hostOps1] c main_v23
      = Cert.Spec.linear (m ((c : Thread nD τ).loc main_arg0)) (weight m c) (m ((c : Thread nD τ).loc main_arg4)) := by
  rw [HostSide.tail_result, Blocks.final]
  unfold Blocks.rowsOut
  rw [HostSide.staged_input, HostSide.staged_weight, HostSide.staged_bias]
  exact Cert.Spec.linearRows_reshape _ _ _ _ _ _

/-- Every weakly fair execution terminates with the result at the dense layer and the arguments unchanged. -/
theorem run : θ_run defs (onTc (τ := τ) (main (F := Ideal))) ⟨m, fun _ => 0, ρ⟩ fun r => ∀ c : Dev nD,
      r.2.mem ((c : Thread nD τ).loc main_v23)
        = Cert.Spec.linear (m ((c : Thread nD τ).loc main_arg0)) (weight m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v23 (Pipeline.mem_restRefs_of main_v23 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference program's result, read index by index, is the dense layer `Spec.linear` of its input, of
  the weight matrix its own host operations dequantize (the stage written into its weight buffer, kept as one
  name and never opened), and of the bias: a `dot_general` contracting the input's last axis with the weight's
  last axis is the sum over k of x (β, s, k) · w (o, k), and the bias, broadcast along batch and sequence,
  is read at the output coordinate `o`.
-/
import proofs.«108061_j17042430231143_1_alg».proof.Proof.Gen.ReferenceIdeal.Read
import proofs.«108061_j17042430231143_1_alg».proof.Proof.Spec

noncomputable section

namespace Cert.ReferenceIdeal.RefValue

open Cert.ReferenceIdeal Cert.ReferenceIdeal.Read Idealize.ShloMosaic Idealize.ShloMosaic.ValueIdx

/-- The reference's last stage is `linear` of the input, the dequantized weight stage and the bias. -/
theorem result_eq (x0 : (⟨S4x2048x4096, .f32⟩ : BufTy).Contents (Elt Ideal)) (x1 : (⟨S4096x512x2, .i32⟩ : BufTy).Contents (Elt Ideal))
    (x2 : (⟨S2x256x1x8, .f32⟩ : BufTy).Contents (Elt Ideal)) (x3 : (⟨S4096x1x1x1, .f32⟩ : BufTy).Contents (Elt Ideal))
    (x4 : (⟨S4096, .f32⟩ : BufTy).Contents (Elt Ideal)) :
    val_main_v22 (F := Ideal) x0 x1 x2 x3 x4 = Cert.Spec.linear x0 (val_main_v18 (F := Ideal) x1 x2 x3) x4 := by
  funext i
  have el : ∀ k : Fin 4096, lidx_main_v19 i k = ix3 (i 0) (i 1) k := fun k => funext fun a => Fin.ext (by
    match a with | ⟨0, _⟩ => rfl | ⟨1, _⟩ => rfl | ⟨2, _⟩ => rfl)
  have er : ∀ k : Fin 4096, ridx_main_v19 i k = ix2 (i 2) k := fun k => funext fun a => Fin.ext (by
    match a with | ⟨0, _⟩ => rfl | ⟨1, _⟩ => rfl)
  have eb : idx_main_v20 (idx_main_v21 i) = ix1 (i 2) := funext fun a => Fin.ext (by
    match a with | ⟨0, _⟩ => rfl)
  rw [val_main_v22_apply, val_main_v19_apply, val_main_v21_apply, val_main_v20_apply]
  unfold Cert.Spec.linear
  simp only [el, er, eb]
  rfl

end Cert.ReferenceIdeal.RefValue

end
-- ==== Proof.lean ====
/-
  The certificate of a quantized dense layer: a Pallas matmul-plus-bias kernel over a weight matrix that the
  surrounding host operations dequantize from additive codebooks, against `einsum("bsi,oi->bso") + bias`
  over the same dequantized weight.

  On the extended reals both programs compute

      out (β, s, o) = (∑ k < 4096, input (β, s, k) · W (o, k)) + bias o,

  with W the SAME term of the codes, the codebooks and the scales on both sides (the two programs print the
  same dequantization chain, so it is carried as one name and never opened).  The kernel differs from the
  reference only in layout and format: it narrows both matmul operands to a 16-bit float format (the
  identity on the extended reals), flattens batch and sequence into 8192 rows, tiles the [8192, 4096]
  result into 16 × 8 blocks of [512, 512], each the product of a [512, 4096] block of rows of the input with
  a [512, 4096] block of rows of W into a zero accumulator, plus a [1, 512] block of the bias, and re-shapes
  the result back.  No law beyond re-indexing is needed, so the finiteness precondition is never opened.

  The three frames are the generated ones (the reference's is its generated run with the result dropped);
  nothing was rewritten by the idealization, so `preserves` is trivial; `algebraic` sets the kernel's run
  (Proof/KernelValue.lean) beside the reference's generated run read as the same function
  (Proof/RefValue.lean).
-/
import proofs.«108061_j17042430231143_1_alg».proof.Defs
import proofs.«108061_j17042430231143_1_alg».proof.Proof.Gen.Kernel
import proofs.«108061_j17042430231143_1_alg».proof.Proof.Gen.Kernel.Frame
import proofs.«108061_j17042430231143_1_alg».proof.Proof.Gen.KernelIdeal
import proofs.«108061_j17042430231143_1_alg».proof.Proof.Gen.KernelIdeal.Frame
import proofs.«108061_j17042430231143_1_alg».proof.Proof.Gen.ReferenceIdeal
import proofs.«108061_j17042430231143_1_alg».proof.Proof.Gen.ReferenceIdeal.Run
import proofs.«108061_j17042430231143_1_alg».proof.Proof.Gen.Pre_finite_inputs
import proofs.«108061_j17042430231143_1_alg».proof.Proof.KernelValue
import proofs.«108061_j17042430231143_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the dense layer of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _ _).trans
    ((Cert.ReferenceIdeal.RefValue.result_eq _ _ _ _ _).trans ?_)
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
